-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S2048x8192 : Shape := ⟨2, ![2048, 8192]⟩
abbrev S8192 : Shape := ⟨1, ![8192]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S1024x2048 .f32) (main_arg1 : IVec S2048x8192 32) (main_arg2 : IVec S2048x8192 32) (main_arg3 : FVec F S8192 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S8192 .f32 := Host.absf main_arg3
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S1024x2048 : Shape := ⟨2, ![1024, 2048]⟩
abbrev S2048x8192 : Shape := ⟨2, ![2048, 8192]⟩
abbrev S8192 : Shape := ⟨1, ![8192]⟩
abbrev S1x8192 : Shape := ⟨2, ![1, 8192]⟩
abbrev S256x2048 : Shape := ⟨2, ![256, 2048]⟩
abbrev S2048x1024 : Shape := ⟨2, ![2048, 1024]⟩
abbrev S1x1024 : Shape := ⟨2, ![1, 1024]⟩
abbrev S256x1024 : Shape := ⟨2, ![256, 1024]⟩

abbrev nBuf : Space → Nat
  | .hbm => 13
  | .vmem => 13
  | .smem => 0
  | _ => 0

abbrev bufTy : (tb : Table) → Fin (tcTables nBuf tb) → BufTy
  | .hbm, ⟨0, _⟩ => ⟨S1024x2048, .f32⟩
  | .hbm, ⟨1, _⟩ => ⟨S2048x8192, .i32⟩
  | .hbm, ⟨2, _⟩ => ⟨S2048x8192, .i32⟩
  | .hbm, ⟨3, _⟩ => ⟨S8192, .f32⟩
  | .hbm, ⟨4, _⟩ => ⟨S1024x2048, .f32⟩
  | .hbm, ⟨5, _⟩ => ⟨S1024x2048, .bf16⟩
  | .hbm, ⟨6, _⟩ => ⟨S1024x2048, .f32⟩
  | .hbm, ⟨7, _⟩ => ⟨S1024x2048, .f32⟩
  | .hbm, ⟨8, _⟩ => ⟨S1024x2048, .bf16⟩
  | .hbm, ⟨9, _⟩ => ⟨S2048x8192, .bf16⟩
  | .hbm, ⟨10, _⟩ => ⟨S2048x8192, .bf16⟩
  | .hbm, ⟨11, _⟩ => ⟨S1x8192, .f32⟩
  | .hbm, ⟨12, _⟩ => ⟨S1024x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S8192_S1x8192 : S8192.ShapeCasts S1x8192
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x2048_S2048x1024_S256x1024_1_0_0_1_n_n_wf : DotDims.WF S256x2048 S2048x1024 S256x1024 [1] [0] [0] [1] [] []
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .bf16 = 32 ∨ (Rect.block (s := S1024x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S1024x2048.size a
  hwx0_1 : ∀ i : grid0.Coords, EltTy.bits .bf16 = 32 ∨ (Rect.block (s := S1024x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x8192.size a
  hwx0_2 : ∀ i : grid0.Coords, EltTy.bits .bf16 = 32 ∨ (Rect.block (s := S2048x8192) S2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x8192.size a
  hwx0_3 : ∀ i : grid0.Coords, EltTy.bits .bf16 = 32 ∨ (Rect.block (s := S2048x8192) S2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S1024x2048.size a
  hwx0_5 : ∀ i : grid0.Coords, EltTy.bits .f32 = 32 ∨ (Rect.block (s := S1024x2048) S256x2048.size (cc0_transform_5 i) (hinb0_5 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_v1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1024x2048 : Shape := ⟨2, ![1024, 2048]⟩
abbrev S2048x8192 : Shape := ⟨2, ![2048, 8192]⟩
abbrev S8192 : Shape := ⟨1, ![8192]⟩
abbrev S1024x8192 : Shape := ⟨2, ![1024, 8192]⟩
abbrev S1x8192 : Shape := ⟨2, ![1, 8192]⟩

abbrev nBuf : Space → Nat
  | .hbm => 13
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x8192, .i32⟩
  | .hbm, ⟨2, _⟩ => ⟨S2048x8192, .i32⟩
  | .hbm, ⟨3, _⟩ => ⟨S8192, .f32⟩
  | .hbm, ⟨4, _⟩ => ⟨S1024x2048, .f32⟩
  | .hbm, ⟨5, _⟩ => ⟨S2048x8192, .f32⟩
  | .hbm, ⟨6, _⟩ => ⟨S1024x8192, .f32⟩
  | .hbm, ⟨7, _⟩ => ⟨S1024x8192, .f32⟩
  | .hbm, ⟨8, _⟩ => ⟨S1x8192, .f32⟩
  | .hbm, ⟨9, _⟩ => ⟨S1024x8192, .f32⟩
  | .hbm, ⟨10, _⟩ => ⟨S1024x8192, .f32⟩
  | .hbm, ⟨11, _⟩ => ⟨S2048x8192, .f32⟩
  | .hbm, ⟨12, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  dot_S1024x2048_S2048x8192_S1024x8192_1_0_0_1_n_n_wf : DotDims.WF S1024x2048 S2048x8192 S1024x8192 [1] [0] [0] [1] [] []
  dot_S1024x8192_S2048x8192_S1024x2048_1_1_0_0_n_n_wf : DotDims.WF S1024x8192 S2048x8192 S1024x2048 [1] [1] [0] [0] [] []

variable [Facts₀]

def dot_S1024x2048_S2048x8192_S1024x8192_1_0_0_1_n_n : DotDims S1024x2048 S2048x8192 S1024x8192 where
  lhsContracting := [1]
  rhsContracting := [0]
  lhsNonContracting := [0]
  rhsNonContracting := [1]
  lhsBatch := []
  rhsBatch := []
  wf := dot_S1024x2048_S2048x8192_S1024x8192_1_0_0_1_n_n_wf
def dot_S1024x8192_S2048x8192_S1024x2048_1_1_0_0_n_n : DotDims S1024x8192 S2048x8192 S1024x2048 where
  lhsContracting := [1]
  rhsContracting := [1]
  lhsNonContracting := [0]
  rhsNonContracting := [0]
  lhsBatch := []
  rhsBatch := []
  wf := dot_S1024x8192_S2048x8192_S1024x2048_1_1_0_0_n_n_wf

class Facts : Prop extends Facts₀ where

variable [Facts]
-- ==== Proof.Pieces.lean ====
/-
  What one grid point leaves behind, case by case, for any float instance.

  The body has one arithmetic payload, `k0_pay2 hi lo E k S acc`: the accumulator `acc` plus this point's partial
  product.  At the first point of a sweep over the reaction tiles the accumulator is first reset (the payload
  `k0_pay1`, a zero block) and read back, so the scratch ends at `k0_pay2 … k0_pay1`; at every later point it is read
  as the point before left it, so the scratch ends at `k0_pay2 … acc`; at the last point of the sweep the output block
  is a copy of the scratch just stored.  Each statement below reads the stores the case's run found back as one value:
  every store covers its whole buffer, so the last one decides, and a load of a whole buffer after a whole-buffer store
  reads that store's payload.
-/
import proofs.«151037_j31602369364718_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Kinetic.Pieces

open Cert.KernelIdeal Cert.KernelIdeal.Gen

variable {F : FTy → Type} [FloatOps F]

theorem hz : (![0, 0] : Fin 2 → Nat) = fun _ => 0 := funext fun a => by fin_cases a <;> rfl

/-- First point of a sweep: the scratch ends at the payload over the reset block. -/
theorem scratch_A (c : Dev nD) (i : grid0.Coords) (a2 : Memref sig .tc .vmem S256x2048 .bf16) (h2 : a2.IsWhole) (a3 : Memref sig .tc .vmem S256x2048 .bf16) (h3 : a3.IsWhole) (a4 : Memref sig .tc .vmem S2048x1024 .bf16) (h4 : a4.IsWhole) (a5 : Memref sig .tc .vmem S2048x1024 .bf16) (h5 : a5.IsWhole) (a6 : Memref sig .tc .vmem S1x1024 .f32) (h6 : a6.IsWhole) (a7 : Memref sig .tc .vmem S256x2048 .f32) (h7 : a7.IsWhole) (a8 : Memref sig .tc .vmem S256x2048 .f32) (h8 : a8.IsWhole) (hc0 : cond0_0 i) (hc1 : ¬cond0_1 i) (x0 : Vec F S256x2048 .bf16) (x1 : Vec F S256x2048 .bf16) (x2 : Vec F S2048x1024 .bf16) (x3 : Vec F S2048x1024 .bf16) (x4 : Vec F S1x1024 .f32) :
    sout0_A_0 c i a2 h2 a3 h3 a4 h4 a5 h5 a6 h6 a7 h7 a8 h8 hc0 hc1 x0 x1 x2 x3 x4 = k0_pay2 x0 x1 x2 x4 x3 (k0_pay1 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S256x2048) hz, View.readCov_unit_zero (S := S256x2048) _ hz]
  simp only [View.readAt_eq_ld, h2.read_unread, h3.read_unread, h4.read_unread, h5.read_unread, h6.read_unread, h8.read_unread,
    View.ld_unit_zero (S := S256x2048) hz, View.ld_unit_zero (S := S2048x1024) hz, View.ld_unit_zero (S := S1x1024) hz]

/-- A middle point: the scratch ends at the payload over what the point before left. -/
theorem scratch_B (c : Dev nD) (i : grid0.Coords) (a2 : Memref sig .tc .vmem S256x2048 .bf16) (h2 : a2.IsWhole) (a3 : Memref sig .tc .vmem S256x2048 .bf16) (h3 : a3.IsWhole) (a4 : Memref sig .tc .vmem S2048x1024 .bf16) (h4 : a4.IsWhole) (a5 : Memref sig .tc .vmem S2048x1024 .bf16) (h5 : a5.IsWhole) (a6 : Memref sig .tc .vmem S1x1024 .f32) (h6 : a6.IsWhole) (a7 : Memref sig .tc .vmem S256x2048 .f32) (h7 : a7.IsWhole) (a8 : Memref sig .tc .vmem S256x2048 .f32) (h8 : a8.IsWhole) (hc0 : ¬cond0_0 i) (hc1 : ¬cond0_1 i) (x0 : Vec F S256x2048 .bf16) (x1 : Vec F S256x2048 .bf16) (x2 : Vec F S2048x1024 .bf16) (x3 : Vec F S2048x1024 .bf16) (x4 : Vec F S1x1024 .f32) (acc : Vec F S256x2048 .f32) :
    sout0_B_0 c i a2 h2 a3 h3 a4 h4 a5 h5 a6 h6 a7 h7 a8 h8 hc0 hc1 x0 x1 x2 x3 x4 acc = k0_pay2 x0 x1 x2 x4 x3 acc := by
  unfold sout0_B_0
  rw [View.read_writes_eq_canon _ _ _ (scover0_B_0 c i a2 h2 a3 h3 a4 h4 a5 h5 a6 h6 a7 h7 a8 h8 hc0 hc1 x0 x1 x2 x3 x4 acc)]
  unfold kernelRun0_B
  dsimp only
  sl_unfold_words
  rw [View.canon_unit_zero (S := S256x2048) hz]
  simp only [View.readAt_eq_ld, h2.read_unread, h3.read_unread, h4.read_unread, h5.read_unread, h6.read_unread, h8.read_unread,
    View.ld_unit_zero (S := S256x2048) hz, View.ld_unit_zero (S := S2048x1024) hz, View.ld_unit_zero (S := S1x1024) hz]

/-- The last point of a sweep leaves the scratch as a middle point does, -/
theorem scratch_C (c : Dev nD) (i : grid0.Coords) (a2 : Memref sig .tc .vmem S256x2048 .bf16) (h2 : a2.IsWhole) (a3 : Memref sig .tc .vmem S256x2048 .bf16) (h3 : a3.IsWhole) (a4 : Memref sig .tc .vmem S2048x1024 .bf16) (h4 : a4.IsWhole) (a5 : Memref sig .tc .vmem S2048x1024 .bf16) (h5 : a5.IsWhole) (a6 : Memref sig .tc .vmem S1x1024 .f32) (h6 : a6.IsWhole) (a7 : Memref sig .tc .vmem S256x2048 .f32) (h7 : a7.IsWhole) (a8 : Memref sig .tc .vmem S256x2048 .f32) (h8 : a8.IsWhole) (hc0 : ¬cond0_0 i) (hc1 : cond0_1 i) (x0 : Vec F S256x2048 .bf16) (x1 : Vec F S256x2048 .bf16) (x2 : Vec F S2048x1024 .bf16) (x3 : Vec F S2048x1024 .bf16) (x4 : Vec F S1x1024 .f32) (acc : Vec F S256x2048 .f32) :
    sout0_C_0 c i a2 h2 a3 h3 a4 h4 a5 h5 a6 h6 a7 h7 a8 h8 hc0 hc1 x0 x1 x2 x3 x4 acc = k0_pay2 x0 x1 x2 x4 x3 acc := by
  unfold sout0_C_0
  rw [View.read_writes_eq_canon _ _ _ (scover0_C_0 c i a2 h2 a3 h3 a4 h4 a5 h5 a6 h6 a7 h7 a8 h8 hc0 hc1 x0 x1 x2 x3 x4 acc)]
  unfold kernelRun0_C
  dsimp only
  sl_unfold_words
  rw [View.canon_unit_zero (S := S256x2048) hz]
  simp only [View.readAt_eq_ld, h2.read_unread, h3.read_unread, h4.read_unread, h5.read_unread, h6.read_unread, h8.read_unread,
    View.ld_unit_zero (S := S256x2048) hz, View.ld_unit_zero (S := S2048x1024) hz, View.ld_unit_zero (S := S1x1024) hz]

/-- and its output block is that scratch, read back and stored. -/
theorem out_C (c : Dev nD) (i : grid0.Coords) (a2 : Memref sig .tc .vmem S256x2048 .bf16) (h2 : a2.IsWhole) (a3 : Memref sig .tc .vmem S256x2048 .bf16) (h3 : a3.IsWhole) (a4 : Memref sig .tc .vmem S2048x1024 .bf16) (h4 : a4.IsWhole) (a5 : Memref sig .tc .vmem S2048x1024 .bf16) (h5 : a5.IsWhole) (a6 : Memref sig .tc .vmem S1x1024 .f32) (h6 : a6.IsWhole) (a7 : Memref sig .tc .vmem S256x2048 .f32) (h7 : a7.IsWhole) (a8 : Memref sig .tc .vmem S256x2048 .f32) (h8 : a8.IsWhole) (hc0 : ¬cond0_0 i) (hc1 : cond0_1 i) (x0 : Vec F S256x2048 .bf16) (x1 : Vec F S256x2048 .bf16) (x2 : Vec F S2048x1024 .bf16) (x3 : Vec F S2048x1024 .bf16) (x4 : Vec F S1x1024 .f32) (acc : Vec F S256x2048 .f32) :
    out0_C_5 c i a2 h2 a3 h3 a4 h4 a5 h5 a6 h6 a7 h7 a8 h8 hc0 hc1 x0 x1 x2 x3 x4 acc = k0_pay2 x0 x1 x2 x4 x3 acc := by
  unfold out0_C_5
  rw [View.read_writes_eq_canon _ _ _ (cover0_C_5 c i a2 h2 a3 h3 a4 h4 a5 h5 a6 h6 a7 h7 a8 h8 hc0 hc1 x0 x1 x2 x3 x4 acc)]
  unfold kernelRun0_C
  dsimp only
  sl_unfold_words
  rw [View.canon_unit_zero (S := S256x2048) hz, View.readCov_unit_zero (S := S256x2048) _ hz]
  simp only [View.readAt_eq_ld, h2.read_unread, h3.read_unread, h4.read_unread, h5.read_unread, h6.read_unread, h8.read_unread,
    View.ld_unit_zero (S := S256x2048) hz, View.ld_unit_zero (S := S2048x1024) hz, View.ld_unit_zero (S := S1x1024) hz]

end Cert.Kinetic.Pieces

end
-- ==== Proof.Payload.lean ====
/-
  One grid point's arithmetic, read at an index, over the extended reals.

  For a block `hi`, `lo` of 256 states × 2048 species (the logarithm and its remainder), a tile `e`, `s` of
  2048 species × 1024 reactions (orders and stoichiometry) and the tile's 1024 rate constants `kk`, the payload at
  `(p, q)` is
    acc[p, q] + ∑ᵣ (kk[0, r] · exp (∑ₘ hi[p, m] · e[m, r] + ∑ₘ lo[p, m] · e[m, r])) · s[q, r],
  the two contractions into a zero accumulator being plain sums, the changes of float format the identity, the row of
  rate constants broadcast down the 256 states.
-/
import proofs.«151037_j31602369364718_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Kinetic.Body

open Cert.KernelIdeal Cert.KernelIdeal.Gen Idealize.ShloMosaic Idealize.ShloMosaic.ValueIdx

/-- The operand coordinates of the first contraction that do not come from the contracted axis. -/
theorem species_lhs0 (i : S256x1024.Idx) (k : dot_S256x2048_S2048x1024_S256x1024_1_0_0_1_n_n.contr.Idx) : (dot_S256x2048_S2048x1024_S256x1024_1_0_0_1_n_n.lhsIdx i k 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem species_rhs1 (i : S256x1024.Idx) (k : dot_S256x2048_S2048x1024_S256x1024_1_0_0_1_n_n.contr.Idx) : (dot_S256x2048_S2048x1024_S256x1024_1_0_0_1_n_n.rhsIdx i k 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl
/-- The operand coordinates of the second contraction that do not come from the contracted axis. -/
theorem reactions_lhs0 (i : S256x2048.Idx) (k : dot_S256x1024_S2048x1024_S256x2048_1_1_0_0_n_n.contr.Idx) : (dot_S256x1024_S2048x1024_S256x2048_1_1_0_0_n_n.lhsIdx i k 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem reactions_rhs0 (i : S256x2048.Idx) (k : dot_S256x1024_S2048x1024_S256x2048_1_1_0_0_n_n.contr.Idx) : (dot_S256x1024_S2048x1024_S256x2048_1_1_0_0_n_n.rhsIdx i k 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl

/-- The first contraction (over the 2048 species) into a zero accumulator, at `(p, r)`. -/
theorem contract_species (x : FVec Ideal S256x2048 .bf16) (e : FVec Ideal S2048x1024 .bf16) (p : Fin 256) (r : Fin 1024) :
    FloatOps.matmul dot_S256x2048_S2048x1024_S256x1024_1_0_0_1_n_n none x e (constant (F := Ideal) S256x1024 .f32 0x00000000#32) (ix2 p r)
      = ∑ mm : Fin 2048, x (ix2 p mm) * e (ix2 mm r) := by
  refine (Ideal.matmul_constant_zero_apply dot_S256x2048_S2048x1024_S256x1024_1_0_0_1_n_n none x e (ix2 p r)).trans ?_
  rw [← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 p r) ((ValueIdx.contrEquiv1 dot_S256x2048_S2048x1024_S256x1024_1_0_0_1_n_n 2048 rfl rfl).symm k) = ix2 p k := funext fun a => Fin.ext (by
    match a with
    | ⟨0, _⟩ => exact species_lhs0 _ _
    | ⟨1, _⟩ => exact (dot_S256x2048_S2048x1024_S256x1024_1_0_0_1_n_n.lhsIdx_val_of_single rfl _ _).trans hk)
  have er : dot_S256x2048_S2048x1024_S256x1024_1_0_0_1_n_n.rhsIdx (ix2 p r) ((ValueIdx.contrEquiv1 dot_S256x2048_S2048x1024_S256x1024_1_0_0_1_n_n 2048 rfl rfl).symm k) = ix2 k r := funext fun a => Fin.ext (by
    match a with
    | ⟨0, _⟩ => exact (dot_S256x2048_S2048x1024_S256x1024_1_0_0_1_n_n.rhsIdx_val_of_single rfl _ _).trans hk
    | ⟨1, _⟩ => exact species_rhs1 _ _)
  rw [el, er]

/-- The second contraction (over the tile's 1024 reactions, both operands contracted on their last axis) into a zero
    accumulator, at `(p, q)`. -/
theorem contract_reactions (v : FVec Ideal S256x1024 .bf16) (s : FVec Ideal S2048x1024 .bf16) (p : Fin 256) (q : Fin 2048) :
    FloatOps.matmul dot_S256x1024_S2048x1024_S256x2048_1_1_0_0_n_n none v s (constant (F := Ideal) S256x2048 .f32 0x00000000#32) (ix2 p q)
      = ∑ r : Fin 1024, v (ix2 p r) * s (ix2 q r) := by
  refine (Ideal.matmul_constant_zero_apply dot_S256x1024_S2048x1024_S256x2048_1_1_0_0_n_n none v s (ix2 p q)).trans ?_
  rw [← Equiv.sum_comp (ValueIdx.contrEquiv1 dot_S256x1024_S2048x1024_S256x2048_1_1_0_0_n_n 1024 rfl rfl).symm]
  refine Finset.sum_congr rfl fun k _ => ?_
  have hk := ValueIdx.contrEquiv1_symm_val dot_S256x1024_S2048x1024_S256x2048_1_1_0_0_n_n 1024 rfl rfl k
  have el : dot_S256x1024_S2048x1024_S256x2048_1_1_0_0_n_n.lhsIdx (ix2 p q) ((ValueIdx.contrEquiv1 dot_S256x1024_S2048x1024_S256x2048_1_1_0_0_n_n 1024 rfl rfl).symm k) = ix2 p k := funext fun a => Fin.ext (by
    match a with
    | ⟨0, _⟩ => exact reactions_lhs0 _ _
    | ⟨1, _⟩ => exact (dot_S256x1024_S2048x1024_S256x2048_1_1_0_0_n_n.lhsIdx_val_of_single rfl _ _).trans hk)
  have er : dot_S256x1024_S2048x1024_S256x2048_1_1_0_0_n_n.rhsIdx (ix2 p q) ((ValueIdx.contrEquiv1 dot_S256x1024_S2048x1024_S256x2048_1_1_0_0_n_n 1024 rfl rfl).symm k) = ix2 q k := funext fun a => Fin.ext (by
    match a with
    | ⟨0, _⟩ => exact reactions_rhs0 _ _
    | ⟨1, _⟩ => exact (dot_S256x1024_S2048x1024_S256x2048_1_1_0_0_n_n.rhsIdx_val_of_single rfl _ _).trans hk)
  rw [el, er]

/-- The point's rates: at `(p, r)`, the tile's rate constant times the exponential of the two contractions' sum. -/
def tileRate (hi lo : FVec Ideal S256x2048 .bf16) (e : FVec Ideal S2048x1024 .bf16) (kk : FVec Ideal S1x1024 .f32)
    (p : Fin 256) (r : Fin 1024) : EReal :=
  kk (ix2 (0 : Fin 1) r)
    * Ideal.exp (∑ mm : Fin 2048, hi (ix2 p mm) * e (ix2 mm r) + ∑ mm : Fin 2048, lo (ix2 p mm) * e (ix2 mm r))

/-- The payload at `(p, q)`: the accumulator plus the point's partial product. -/
theorem pay2_apply (hi lo : FVec Ideal S256x2048 .bf16) (e s : FVec Ideal S2048x1024 .bf16) (kk : FVec Ideal S1x1024 .f32)
    (acc : FVec Ideal S256x2048 .f32) (p : Fin 256) (q : Fin 2048) :
    k0_pay2 (F := Ideal) hi lo e kk s acc (ix2 p q)
      = acc (ix2 p q) + ∑ r : Fin 1024, tileRate hi lo e kk p r * s (ix2 q r) := by
  unfold k0_pay2
  simp only [shapeCast_self]
  refine congrArg (acc (ix2 p q) + ·) ?_
  refine (contract_reactions _ s p q).trans ?_
  refine Finset.sum_congr rfl fun r _ => ?_
  refine congrArg (· * s (ix2 q r)) ?_
  show broadcastTo S256x1024 kk broadcasts_S1x1024_S256x1024 (ix2 p r)
      * Ideal.exp (FloatOps.matmul dot_S256x2048_S2048x1024_S256x1024_1_0_0_1_n_n none hi e (constant (F := Ideal) S256x1024 .f32 0x00000000#32) (ix2 p r)
          + FloatOps.matmul dot_S256x2048_S2048x1024_S256x1024_1_0_0_1_n_n none lo e (constant (F := Ideal) S256x1024 .f32 0x00000000#32) (ix2 p r)) = _
  rw [broadcastTo_1b_ab_apply kk broadcasts_S1x1024_S256x1024 p r, contract_species hi e p r, contract_species lo e p r]
  rfl

/-- The reset block is zero everywhere. -/
theorem pay1_apply (y : S256x2048.Idx) : k0_pay1 (F := Ideal) y = 0 := by
  unfold k0_pay1
  simp only [shapeCast_self]
  show Ideal.ofBits .f32 0x00000000#32 = 0
  exact Ideal.ofBits_zero_f32

end Cert.Kinetic.Body

end
-- ==== Proof.Algebra.lean ====
/-
  Extended-real algebra for the rate-law kernel, over abstract finite index types.

  The kernel splits the logarithm `a = log c` into a leading part `a` and a remainder `a - a` and contracts both with
  the integer exponents `e`.  On the extended reals `a - a` is `0` when `a` is finite, but `⊥ - ⊥ = ⊥`: the remainder of
  `log 0 = -∞` is again `-∞`.  Term by term the two contractions still add up to the single one,
  `a · e + (a - a) · e = a · e`, as long as `a ≠ ⊤`: for finite `a` the second term is `0 · e = 0`, and for `a = ⊥` both
  terms are the same element of `{⊥, 0, ⊤}` (by the sign of `e`), each of which is idempotent for `+`.  Addition of
  extended reals is commutative and associative, so the termwise identity sums.

  The second contraction runs over 8192 positions; the kernel visits them in 8 consecutive runs of 1024 and adds the
  runs' sums one after the other starting from `0`.
-/
import Idealize.ShloMosaic.PureOps.Ideal

open scoped BigOperators

namespace Cert.Kinetic

open Idealize.ShloMosaic

/-- The logarithm of a real number is a real number or `-∞`, never `+∞`. -/
theorem log_coe_ne_top (x : ℝ) : Ideal.log (x : EReal) ≠ ⊤ := by
  show (if x ≤ 0 then (⊥ : EReal) else ((Real.log x : ℝ) : EReal)) ≠ ⊤
  split_ifs
  · exact bot_ne_top
  · exact EReal.coe_ne_top _

/-- `a · e + (a - a) · e = a · e` for `a ≠ +∞` and a real `e`. -/
theorem mul_add_remainder_mul (a : EReal) (ha : a ≠ ⊤) (e : ℝ) :
    a * (e : EReal) + (a - a) * (e : EReal) = a * (e : EReal) := by
  induction a using EReal.rec with
  | bot =>
    have hb : (⊥ : EReal) - ⊥ = ⊥ := EReal.bot_sub _
    rw [hb]
    rcases lt_trichotomy e 0 with h | h | h
    · rw [EReal.bot_mul_coe_of_neg h]; exact EReal.top_add_top
    · subst h; simp
    · rw [EReal.bot_mul_coe_of_pos h]; exact EReal.bot_add _
  | coe x =>
    rw [← EReal.coe_sub, sub_self, EReal.coe_zero, zero_mul, add_zero]
  | top => exact absurd rfl ha

/-- The two contractions of the split logarithm add up to the contraction of the logarithm. -/
theorem sum_mul_add_sum_remainder_mul {ι : Type} [Fintype ι] (a : ι → EReal) (ha : ∀ k, a k ≠ ⊤) (e : ι → ℝ) :
    ∑ k, a k * (e k : EReal) + ∑ k, (a k - a k) * (e k : EReal) = ∑ k, a k * (e k : EReal) := by
  rw [← Finset.sum_add_distrib]
  exact Finset.sum_congr rfl fun k _ => mul_add_remainder_mul (a k) (ha k) (e k)

/-- A sum over 8192 positions is the sum, over 8 consecutive runs, of each run's 1024 terms. -/
theorem sum_runs (f : Fin 8192 → EReal) :
    ∑ r : Fin 8192, f r
      = ∑ a : Fin 8, ∑ b : Fin 1024, f ⟨a.val * 1024 + b.val, by have := a.isLt; have := b.isLt; omega⟩ := by
  rw [← Fintype.sum_prod_type']
  refine (Fintype.sum_equiv (finProdFinEquiv (m := 8) (n := 1024)) _ f fun x => ?_).symm
  refine congrArg f (Fin.ext ?_)
  show x.1.val * 1024 + x.2.val = x.2.val + 1024 * x.1.val
  omega

end Cert.Kinetic
-- ==== Proof.Spec.lean ====
/-
  The specification: what both programs compute, index by index, over the extended reals.

  For concentrations `conc[b, m]`, integer kinetic orders `E[m, r]`, integer stoichiometric coefficients `S[m, r]` and
  rate constants `k[r]`:
    logRate[b, r] = ∑ₘ log conc[b, m] · E[m, r]          (the logarithm of a mass-action monomial)
    rate[b, r]    = k[r] · exp logRate[b, r]
    G[b, m]       = ∑ᵣ rate[b, r] · S[m, r]              (the right-hand side of the kinetic equations)
  An integer entry enters as the real number it denotes, read signed.
-/
import Idealize.ShloMosaic.PureOps.Ideal
import Idealize.ShloMosaic.Lib.ValueIdx

noncomputable section

open scoped BigOperators

namespace Cert.Kinetic

open Idealize.ShloMosaic Idealize.ShloMosaic.ValueIdx

/-- The real number a 32-bit word denotes, read signed. -/
def intVal (w : BitVec 32) : EReal := ((w.toInt : ℝ) : EReal)

/-- The logarithm of reaction `r`'s monomial in state `b`. -/
def logRate (conc : (⟨2, ![1024, 2048]⟩ : Shape).Idx → EReal) (E : (⟨2, ![2048, 8192]⟩ : Shape).Idx → BitVec 32)
    (b : Fin 1024) (r : Fin 8192) : EReal :=
  ∑ m : Fin 2048, Ideal.log (conc (ix2 b m)) * intVal (E (ix2 m r))

/-- Reaction `r`'s rate in state `b`. -/
def rate (conc : (⟨2, ![1024, 2048]⟩ : Shape).Idx → EReal) (E : (⟨2, ![2048, 8192]⟩ : Shape).Idx → BitVec 32)
    (k : (⟨1, ![8192]⟩ : Shape).Idx → EReal) (b : Fin 1024) (r : Fin 8192) : EReal :=
  k (ix1 r) * Ideal.exp (logRate conc E b r)

/-- The rate of change of species `i 1` in state `i 0`. -/
def G (conc : (⟨2, ![1024, 2048]⟩ : Shape).Idx → EReal) (E S : (⟨2, ![2048, 8192]⟩ : Shape).Idx → BitVec 32)
    (k : (⟨1, ![8192]⟩ : Shape).Idx → EReal) : (⟨2, ![1024, 2048]⟩ : Shape).Idx → EReal :=
  fun i => ∑ r : Fin 8192, rate conc E k (i 0) r * intVal (S (ix2 (i 1) r))

end Cert.Kinetic

end
-- ==== Proof.Tile.lean ====
/-
  A grid point's partial product is its tile's share of the specification.

  Suppose the point's blocks are the arrays read at an offset: `hi` the logarithm of 256 consecutive states starting at
  `b0`, `lo` the same logarithm minus itself, `e` and `s` the orders and the stoichiometry of 1024 consecutive
  reactions starting at `r0`, `kk` their rate constants.  With every concentration finite its logarithm is never `+∞`,
  so the two contractions of the split logarithm add up to the contraction of the logarithm
  (`sum_mul_add_sum_remainder_mul`), the point's rates are the specification's rates of those reactions, and the
  partial product is the sum of `rate · S` over those 1024 reactions.
-/
import proofs.«151037_j31602369364718_2_alg».proof.Proof.Payload
import proofs.«151037_j31602369364718_2_alg».proof.Proof.Algebra
import proofs.«151037_j31602369364718_2_alg».proof.Proof.Spec

noncomputable section

open scoped BigOperators

namespace Cert.Kinetic.Body

open Cert.KernelIdeal Idealize.ShloMosaic Idealize.ShloMosaic.ValueIdx Cert.Kinetic

/-- The share of `G[b0 + p, q]` that the 1024 reactions from `r0` on contribute. -/
def share (conc : (⟨2, ![1024, 2048]⟩ : Shape).Idx → EReal) (E S : (⟨2, ![2048, 8192]⟩ : Shape).Idx → BitVec 32)
    (k : (⟨1, ![8192]⟩ : Shape).Idx → EReal) (b0 r0 : ℕ) (hb0 : b0 + 256 ≤ 1024) (hr0 : r0 + 1024 ≤ 8192)
    (p : Fin 256) (q : Fin 2048) : EReal :=
  ∑ r : Fin 1024, rate conc E k ⟨b0 + p.val, by have := p.isLt; omega⟩ ⟨r0 + r.val, by have := r.isLt; omega⟩
    * intVal (S (ix2 q ⟨r0 + r.val, by have := r.isLt; omega⟩))

theorem tile_sum (conc : (⟨2, ![1024, 2048]⟩ : Shape).Idx → EReal) (E S : (⟨2, ![2048, 8192]⟩ : Shape).Idx → BitVec 32)
    (k : (⟨1, ![8192]⟩ : Shape).Idx → EReal) (hfin : ∀ i, ∃ x : ℝ, conc i = (x : EReal))
    (hi lo : FVec Ideal S256x2048 .bf16) (e s : FVec Ideal S2048x1024 .bf16) (kk : FVec Ideal S1x1024 .f32)
    (b0 r0 : ℕ) (hb0 : b0 + 256 ≤ 1024) (hr0 : r0 + 1024 ≤ 8192)
    (hhi : ∀ (p : Fin 256) (mm : Fin 2048),
      hi (ix2 p mm) = Ideal.log (conc (ix2 ⟨b0 + p.val, by have := p.isLt; omega⟩ mm)))
    (hlo : ∀ (p : Fin 256) (mm : Fin 2048),
      lo (ix2 p mm) = Ideal.log (conc (ix2 ⟨b0 + p.val, by have := p.isLt; omega⟩ mm))
        - Ideal.log (conc (ix2 ⟨b0 + p.val, by have := p.isLt; omega⟩ mm)))
    (he : ∀ (mm : Fin 2048) (r : Fin 1024), e (ix2 mm r) = intVal (E (ix2 mm ⟨r0 + r.val, by have := r.isLt; omega⟩)))
    (hs : ∀ (q : Fin 2048) (r : Fin 1024), s (ix2 q r) = intVal (S (ix2 q ⟨r0 + r.val, by have := r.isLt; omega⟩)))
    (hk : ∀ r : Fin 1024, kk (ix2 (0 : Fin 1) r) = k (ix1 ⟨r0 + r.val, by have := r.isLt; omega⟩))
    (p : Fin 256) (q : Fin 2048) :
    ∑ r : Fin 1024, tileRate hi lo e kk p r * s (ix2 q r) = share conc E S k b0 r0 hb0 hr0 p q := by
  unfold share
  refine Finset.sum_congr rfl fun r _ => ?_
  rw [hs q r]
  refine congrArg (· * _) ?_
  unfold tileRate rate logRate
  rw [hk r]
  refine congrArg (fun z => _ * Ideal.exp z) ?_
  simp only [hhi, hlo, he]
  exact sum_mul_add_sum_remainder_mul
    (fun mm : Fin 2048 => Ideal.log (conc (ix2 ⟨b0 + p.val, by have := p.isLt; omega⟩ mm)))
    (fun mm => by
      obtain ⟨x, hx⟩ := hfin (ix2 ⟨b0 + p.val, by have := p.isLt; omega⟩ mm)
      rw [hx]
      exact log_coe_ne_top x)
    (fun mm : Fin 2048 => ((E (ix2 mm ⟨r0 + r.val, by have := r.isLt; omega⟩)).toInt : ℝ))

end Cert.Kinetic.Body

end
-- ==== Proof.Entry.lean ====
/-
  What each window's block holds at a grid point, in terms of the four argument arrays.

  The host prepares five arrays before the region: the logarithm of the concentrations (a change of format, the
  identity here), that logarithm minus itself (through the same changes of format), the two integer arrays converted
  to the reals they denote, and the rate constants laid out as one row.  The grid has 4 × 8 points; point `t` works on
  the 256 states from `(t / 8) · 256` and the 1024 reactions from `(t % 8) · 1024`, and each window's block is its
  array read at those offsets (a block's element sits at block index × block size + its own coordinate).
-/
import proofs.«151037_j31602369364718_2_alg».proof.Proof.Gen.KernelIdeal.Frame
import proofs.«151037_j31602369364718_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.StableHlo

namespace Cert.Kinetic.Entry

open Cert.KernelIdeal Cert.KernelIdeal.Gen Idealize.ShloMosaic.ValueIdx Cert.Kinetic

variable (m : (ℓ : Loc nD τ sig) → Buf (Elt Ideal) ℓ)

/-- The four argument arrays of device `c`, as launched. -/
abbrev concOf (c : Dev nD) : S1024x2048.Idx → EReal := m ((c : Thread nD τ).loc main_arg0)
abbrev ordersOf (c : Dev nD) : S2048x8192.Idx → BitVec 32 := m ((c : Thread nD τ).loc main_arg1)
abbrev stoichOf (c : Dev nD) : S2048x8192.Idx → BitVec 32 := m ((c : Thread nD τ).loc main_arg2)
abbrev constsOf (c : Dev nD) : S8192.Idx → EReal := m ((c : Thread nD τ).loc main_arg3)

/-! ## The arrays the region finds -/

theorem entry_hi (c : Dev nD) (i : S1024x2048.Idx) :
    (V m c main_v1 : S1024x2048.Idx → EReal) i = Ideal.log (concOf m c i) := by
  have e : (V m c main_v1 : S1024x2048.Idx → EReal)
      = truncf .bf16 (Host.log (F := Ideal) (concOf m c)) bitsLt_bf16_f32 := by
    dsimp only [Gen.V, Gen.hostOps0]; after_results
  rw [e]; rfl

theorem entry_lo (c : Dev nD) (i : S1024x2048.Idx) :
    (V m c main_v4 : S1024x2048.Idx → EReal) i = Ideal.log (concOf m c i) - Ideal.log (concOf m c i) := by
  have e : (V m c main_v4 : S1024x2048.Idx → EReal)
      = truncf .bf16 (subf (Host.log (F := Ideal) (concOf m c))
          (extf .f32 (truncf .bf16 (Host.log (F := Ideal) (concOf m c)) bitsLt_bf16_f32) bitsLt_bf16_f32)) bitsLt_bf16_f32 := by
    dsimp only [Gen.V, Gen.hostOps0]; after_results
  rw [e]; rfl

theorem entry_orders (c : Dev nD) (i : S2048x8192.Idx) :
    (V m c main_v5 : S2048x8192.Idx → EReal) i = intVal (ordersOf m c i) := by
  have e : (V m c main_v5 : S2048x8192.Idx → EReal) = sitofp (F := Ideal) .bf16 (ordersOf m c) := by
    dsimp only [Gen.V, Gen.hostOps0]; after_results
  rw [e]; rfl

theorem entry_stoich (c : Dev nD) (i : S2048x8192.Idx) :
    (V m c main_v6 : S2048x8192.Idx → EReal) i = intVal (stoichOf m c i) := by
  have e : (V m c main_v6 : S2048x8192.Idx → EReal) = sitofp (F := Ideal) .bf16 (stoichOf m c) := by
    dsimp only [Gen.V, Gen.hostOps0]; after_results
  rw [e]; rfl

theorem entry_consts (c : Dev nD) (r : Fin 8192) :
    (V m c main_v7 : S1x8192.Idx → EReal) (ix2 (0 : Fin 1) r) = constsOf m c (ix1 r) := by
  have e : (V m c main_v7 : S1x8192.Idx → EReal) = shapeCast S1x8192 (constsOf m c) shapeCasts_S8192_S1x8192 := by
    dsimp only [Gen.V, Gen.hostOps0]; after_results; rfl
  rw [e]
  exact shapeCast_a_1a_apply (constsOf m c) shapeCasts_S8192_S1x8192 0 r

/-! ## The windows' block indices over the grid -/

theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = t.val % 8
    ∧ win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = t.val / 8 ∧ win0_5.index t (1 : Fin 2) = 0 :=
  (by decide +kernel : ∀ t : Fin grid0.N, _)

/-! ## The blocks at a point -/

theorem blk_hi (c : Dev nD) (t : Fin cfg0.N) (b0 : ℕ) (hb : b0 = t.val / 8 * 256) (hb0 : b0 + 256 ≤ 1024) (p : Fin 256) (mm : Fin 2048) :
    (iblk m c 0 t : FVec Ideal S256x2048 .bf16) (ix2 p mm)
      = Ideal.log (concOf m c (ix2 ⟨b0 + p.val, by have := p.isLt; omega⟩ mm)) := by
  rw [← entry_hi m c]
  show V m c main_v1 (((cfg0.win 0).blk t).view.emb (ix2 p mm)) = V m c main_v1 _
  refine congrArg (V m c main_v1) (funext fun a => Fin.ext ?_)
  obtain ⟨e0, e1, -⟩ := idx_facts t
  match a with
  | ⟨0, _⟩ => show win0_0.index t (0 : Fin 2) * 256 + 1 * p.val = b0 + p.val; rw [e0, hb]; omega
  | ⟨1, _⟩ => show win0_0.index t (1 : Fin 2) * 2048 + 1 * mm.val = mm.val; rw [e1]; omega

theorem blk_lo (c : Dev nD) (t : Fin cfg0.N) (b0 : ℕ) (hb : b0 = t.val / 8 * 256) (hb0 : b0 + 256 ≤ 1024) (p : Fin 256) (mm : Fin 2048) :
    (iblk m c 1 t : FVec Ideal S256x2048 .bf16) (ix2 p mm)
      = Ideal.log (concOf m c (ix2 ⟨b0 + p.val, by have := p.isLt; omega⟩ mm))
        - Ideal.log (concOf m c (ix2 ⟨b0 + p.val, by have := p.isLt; omega⟩ mm)) := by
  rw [← entry_lo m c]
  show V m c main_v4 (((cfg0.win 1).blk t).view.emb (ix2 p mm)) = V m c main_v4 _
  refine congrArg (V m c main_v4) (funext fun a => Fin.ext ?_)
  obtain ⟨-, -, e0, e1, -⟩ := idx_facts t
  match a with
  | ⟨0, _⟩ => show win0_1.index t (0 : Fin 2) * 256 + 1 * p.val = b0 + p.val; rw [e0, hb]; omega
  | ⟨1, _⟩ => show win0_1.index t (1 : Fin 2) * 2048 + 1 * mm.val = mm.val; rw [e1]; omega

theorem blk_orders (c : Dev nD) (t : Fin cfg0.N) (r0 : ℕ) (hr : r0 = t.val % 8 * 1024) (hr0 : r0 + 1024 ≤ 8192) (mm : Fin 2048) (r : Fin 1024) :
    (iblk m c 2 t : FVec Ideal S2048x1024 .bf16) (ix2 mm r)
      = intVal (ordersOf m c (ix2 mm ⟨r0 + r.val, by have := r.isLt; omega⟩)) := by
  rw [← entry_orders m c]
  show V m c main_v5 (((cfg0.win 2).blk t).view.emb (ix2 mm r)) = V m c main_v5 _
  refine congrArg (V m c main_v5) (funext fun a => Fin.ext ?_)
  obtain ⟨-, -, -, -, e0, e1, -⟩ := idx_facts t
  match a with
  | ⟨0, _⟩ => show win0_2.index t (0 : Fin 2) * 2048 + 1 * mm.val = mm.val; rw [e0]; omega
  | ⟨1, _⟩ => show win0_2.index t (1 : Fin 2) * 1024 + 1 * r.val = r0 + r.val; rw [e1, hr]; omega

theorem blk_stoich (c : Dev nD) (t : Fin cfg0.N) (r0 : ℕ) (hr : r0 = t.val % 8 * 1024) (hr0 : r0 + 1024 ≤ 8192) (q : Fin 2048) (r : Fin 1024) :
    (iblk m c 3 t : FVec Ideal S2048x1024 .bf16) (ix2 q r)
      = intVal (stoichOf m c (ix2 q ⟨r0 + r.val, by have := r.isLt; omega⟩)) := by
  rw [← entry_stoich m c]
  show V m c main_v6 (((cfg0.win 3).blk t).view.emb (ix2 q r)) = V m c main_v6 _
  refine congrArg (V m c main_v6) (funext fun a => Fin.ext ?_)
  obtain ⟨-, -, -, -, -, -, e0, e1, -⟩ := idx_facts t
  match a with
  | ⟨0, _⟩ => show win0_3.index t (0 : Fin 2) * 2048 + 1 * q.val = q.val; rw [e0]; omega
  | ⟨1, _⟩ => show win0_3.index t (1 : Fin 2) * 1024 + 1 * r.val = r0 + r.val; rw [e1, hr]; omega

theorem blk_consts (c : Dev nD) (t : Fin cfg0.N) (r0 : ℕ) (hr : r0 = t.val % 8 * 1024) (hr0 : r0 + 1024 ≤ 8192) (r : Fin 1024) :
    (iblk m c 4 t : FVec Ideal S1x1024 .f32) (ix2 (0 : Fin 1) r)
      = constsOf m c (ix1 ⟨r0 + r.val, by have := r.isLt; omega⟩) := by
  rw [← entry_consts m c]
  show V m c main_v7 (((cfg0.win 4).blk t).view.emb (ix2 (0 : Fin 1) r)) = V m c main_v7 _
  refine congrArg (V m c main_v7) (funext fun a => Fin.ext ?_)
  obtain ⟨-, -, -, -, -, -, -, -, e0, e1, -⟩ := idx_facts t
  match a with
  | ⟨0, _⟩ => show win0_4.index t (0 : Fin 2) * 1 + 1 * 0 = 0; rw [e0]
  | ⟨1, _⟩ => show win0_4.index t (1 : Fin 2) * 1024 + 1 * r.val = r0 + r.val; rw [e1, hr]; omega

end Cert.Kinetic.Entry

end
-- ==== Proof.Fold.lean ====
/-
  The sweep over the reaction tiles, as a running sum.

  For a fixed block of 256 states the grid visits the 8 reaction tiles in order.  After the point of tile `j` the
  scratch holds, at `(p, q)`, the sum of the shares of tiles `0 … j` (the first point starts from the zero block, each
  later point adds its share to what the point before left): by induction on the point.  At the last tile the output
  block is the scratch, the sum of all 8 shares, and 8 consecutive runs of 1024 reactions are all 8192 reactions, so
  the output block at `(p, q)` is `G` at state `(t / 8) · 256 + p` and species `q`.
-/
import proofs.«151037_j31602369364718_2_alg».proof.Proof.Pieces
import proofs.«151037_j31602369364718_2_alg».proof.Proof.Tile
import proofs.«151037_j31602369364718_2_alg».proof.Proof.Entry

noncomputable section

open scoped BigOperators

open Idealize.ShloMosaic Idealize.ShloMosaic.TcCoe Idealize.SL.Sem

namespace Cert.Kinetic.Fold

open Cert.KernelIdeal Cert.KernelIdeal.Gen Idealize.ShloMosaic.ValueIdx Cert.Kinetic Cert.Kinetic.Body Cert.Kinetic.Entry

variable (m : (ℓ : Loc nD τ sig) → Buf (Elt Ideal) ℓ) (c : Dev nD)

/-- The share of state block `bi` and reaction tile `a` (total in both: out-of-range numbers wrap). -/
def tileShare (bi a : ℕ) (p : Fin 256) (q : Fin 2048) : EReal :=
  share (concOf m c) (ordersOf m c) (stoichOf m c) (constsOf m c) (bi % 4 * 256) (a % 8 * 1024) (by omega) (by omega) p q

variable (hfin : ∀ i, ∃ x : ℝ, concOf m c i = (x : EReal))
include hfin

/-- The partial product of point `t` is the share of its state block and reaction tile. -/
theorem point_share (t : Fin cfg0.N) (p : Fin 256) (q : Fin 2048) :
    ∑ r : Fin 1024, tileRate (iblk m c 0 t) (iblk m c 1 t) (iblk m c 2 t) (iblk m c 4 t) p r
        * (iblk m c 3 t : FVec Ideal S2048x1024 .bf16) (ix2 q r)
      = tileShare m c (t.val / 8) (t.val % 8) p q := by
  have ht : t.val < 32 := lt_of_lt_of_eq t.isLt (show cfg0.N = 32 from N_0)
  have hb : t.val / 8 % 4 * 256 = t.val / 8 * 256 := by omega
  have hr : t.val % 8 % 8 * 1024 = t.val % 8 * 1024 := by omega
  exact tile_sum (concOf m c) (ordersOf m c) (stoichOf m c) (constsOf m c) hfin
    (iblk m c 0 t) (iblk m c 1 t) (iblk m c 2 t) (iblk m c 3 t) (iblk m c 4 t)
    (t.val / 8 % 4 * 256) (t.val % 8 % 8 * 1024) (by omega) (by omega)
    (fun p mm => blk_hi m c t (t.val / 8 % 4 * 256) hb (by omega) p mm)
    (fun p mm => blk_lo m c t (t.val / 8 % 4 * 256) hb (by omega) p mm)
    (fun mm r => blk_orders m c t (t.val % 8 % 8 * 1024) hr (by omega) mm r)
    (fun q r => blk_stoich m c t (t.val % 8 % 8 * 1024) hr (by omega) q r)
    (fun r => blk_consts m c t (t.val % 8 % 8 * 1024) hr (by omega) r)
    p q

/-- The scratch after point `n`: the shares of the tiles visited so far in this sweep. -/
theorem scratch_eq : ∀ (n : ℕ) (h : n < cfg0.N) (p : Fin 256) (q : Fin 2048),
    (outsAt0 m c n h).2 (ix2 p q) = ∑ a ∈ Finset.range (n % 8 + 1), tileShare m c (n / 8) a p q := by
  intro n
  induction n with
  | zero =>
    intro h p q
    have e := outsAt0_A m c ⟨0, h⟩ rfl (by show ¬(0 % 8 = 7); decide)
    let t : Fin cfg0.N := ⟨0, h⟩
    rw [show outsAt0 m c 0 h = outsAt0 m c t.val t.isLt from rfl, e]
    dsimp only
    refine (congrFun (Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t)) (ix2 p q)).trans ?_
    refine (pay2_apply (iblk m c 0 t) (iblk m c 1 t) (iblk m c 2 t) (iblk m c 3 t) (iblk m c 4 t) (k0_pay1 (F := Ideal)) p q).trans ?_
    rw [pay1_apply, zero_add, point_share m c hfin t p q]
    show tileShare m c (0 / 8) (0 % 8) p q = ∑ a ∈ Finset.range (0 % 8 + 1), tileShare m c (0 / 8) a p q
    simp
  | succ n ih =>
    intro h p q
    have hN : n + 1 < 32 := lt_of_lt_of_eq h (show cfg0.N = 32 from N_0)
    let t : Fin cfg0.N := ⟨n + 1, h⟩
    have hprev : (outsAt0 m c (t.val - 1) (Nat.lt_of_le_of_lt (Nat.sub_le _ _) t.isLt)).2 (ix2 p q) = ∑ a ∈ Finset.range (n % 8 + 1), tileShare m c (n / 8) a p q :=
      ih (Nat.lt_of_succ_lt h) p q
    by_cases h0 : (n + 1) % 8 = 0
    · have e := outsAt0_A m c t h0 (by show ¬(n + 1) % 8 = 7; omega)
      rw [show outsAt0 m c (n + 1) h = outsAt0 m c t.val t.isLt from rfl, e]
      dsimp only
      refine (congrFun (Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t)) (ix2 p q)).trans ?_
      refine (pay2_apply (iblk m c 0 t) (iblk m c 1 t) (iblk m c 2 t) (iblk m c 3 t) (iblk m c 4 t) (k0_pay1 (F := Ideal)) p q).trans ?_
      rw [pay1_apply, zero_add, point_share m c hfin t p q]
      show tileShare m c ((n + 1) / 8) ((n + 1) % 8) p q = _
      rw [h0]
      simp
    · have hd : (n + 1) / 8 = n / 8 := by omega
      have hm : (n + 1) % 8 = n % 8 + 1 := by omega
      have hstep : (outsAt0 m c (t.val - 1) (Nat.lt_of_le_of_lt (Nat.sub_le _ _) t.isLt)).2 (ix2 p q) + tileShare m c ((n + 1) / 8) ((n + 1) % 8) p q
          = ∑ a ∈ Finset.range ((n + 1) % 8 + 1), tileShare m c ((n + 1) / 8) a p q := by
        rw [hprev, hd, hm]
        exact (Finset.sum_range_succ _ _).symm
      by_cases h1 : (n + 1) % 8 = 7
      · have e := outsAt0_C m c t h0 h1
        rw [show outsAt0 m c (n + 1) h = outsAt0 m c t.val t.isLt from rfl, e]
        dsimp only
        refine (congrFun (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2) (ix2 p q)).trans ?_
        refine (pay2_apply (iblk m c 0 t) (iblk m c 1 t) (iblk m c 2 t) (iblk m c 3 t) (iblk m c 4 t) (outsAt0 m c (t.val - 1) (Nat.lt_of_le_of_lt (Nat.sub_le _ _) t.isLt)).2 p q).trans ?_
        rw [point_share m c hfin t p q]
        exact hstep
      · have e := outsAt0_B m c t h0 h1
        rw [show outsAt0 m c (n + 1) h = outsAt0 m c t.val t.isLt from rfl, e]
        dsimp only
        refine (congrFun (Pieces.scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2) (ix2 p q)).trans ?_
        refine (pay2_apply (iblk m c 0 t) (iblk m c 1 t) (iblk m c 2 t) (iblk m c 3 t) (iblk m c 4 t) (outsAt0 m c (t.val - 1) (Nat.lt_of_le_of_lt (Nat.sub_le _ _) t.isLt)).2 p q).trans ?_
        rw [point_share m c hfin t p q]
        exact hstep

/-- At the last tile of a sweep the output block holds all 8 shares. -/
theorem out_eq (t : Fin cfg0.N) (h1 : t.val % 8 = 7) (p : Fin 256) (q : Fin 2048) :
    (outsAt0 m c t.val t.isLt).1 (ix2 p q) = ∑ a ∈ Finset.range 8, tileShare m c (t.val / 8) a p q := by
  have ht : t.val < 32 := lt_of_lt_of_eq t.isLt (show cfg0.N = 32 from N_0)
  have h0 : ¬t.val % 8 = 0 := by omega
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) (outsAt0 m c (t.val - 1) (Nat.lt_of_le_of_lt (Nat.sub_le _ _) t.isLt)).2) (ix2 p q)).trans ?_
  refine (pay2_apply (iblk m c 0 t) (iblk m c 1 t) (iblk m c 2 t) (iblk m c 3 t) (iblk m c 4 t) (outsAt0 m c (t.val - 1) (Nat.lt_of_le_of_lt (Nat.sub_le _ _) t.isLt)).2 p q).trans ?_
  rw [point_share m c hfin t p q, scratch_eq m c hfin (t.val - 1) _ p q,
    show (t.val - 1) % 8 + 1 = 7 by omega, show (t.val - 1) / 8 = t.val / 8 by omega, h1]
  exact (Finset.sum_range_succ _ 7).symm

omit hfin in
/-- The 8 shares of a state block are `G` there. -/
theorem shares_eq_G (bi : ℕ) (hbi : bi < 4) (p : Fin 256) (q : Fin 2048) :
    ∑ a ∈ Finset.range 8, tileShare m c bi a p q
      = G (concOf m c) (ordersOf m c) (stoichOf m c) (constsOf m c)
          (ix2 ⟨bi * 256 + p.val, by have := p.isLt; omega⟩ q) := by
  show _ = ∑ r : Fin 8192, rate (concOf m c) (ordersOf m c) (constsOf m c) ⟨bi * 256 + p.val, _⟩ r
      * intVal (stoichOf m c (ix2 q r))
  rw [sum_runs, Finset.sum_range]
  refine Finset.sum_congr rfl fun a _ => ?_
  unfold tileShare share
  refine Finset.sum_congr rfl fun r _ => ?_
  have e1 : (⟨bi % 4 * 256 + p.val, by have := p.isLt; omega⟩ : Fin 1024) = ⟨bi * 256 + p.val, by have := p.isLt; omega⟩ :=
    Fin.ext (by show bi % 4 * 256 + p.val = bi * 256 + p.val; omega)
  have e2 : (⟨a.val % 8 * 1024 + r.val, by have := r.isLt; omega⟩ : Fin 8192) = ⟨a.val * 1024 + r.val, by have := a.isLt; have := r.isLt; omega⟩ :=
    Fin.ext (by show a.val % 8 * 1024 + r.val = a.val * 1024 + r.val; have := a.isLt; omega)
  rw [e1, e2]

end Cert.Kinetic.Fold

end
-- ==== Proof.Final.lean ====
/-
  The result array after the run is `G` of the argument arrays.

  The output window's block index follows the state block only, so its array is written back once per sweep, at the
  last tile (`t % 8 = 7`), with the block of 256 states from `(t / 8) · 256`.  What is written back there is the output
  block `Fold.out_eq` computes: all 8 shares, that is `G` read through the block.  The four sweeps' blocks cover the
  1024 states: row `b` lies in the block written at point `(b / 256) · 8 + 7`.
-/
import proofs.«151037_j31602369364718_2_alg».proof.Proof.Fold
import proofs.«151037_j31602369364718_2_alg».proof.Proof.Gen.KernelIdeal.Value

noncomputable section

open scoped BigOperators

open Idealize.ShloMosaic Idealize.ShloMosaic.TcCoe Idealize.SL.Sem
open Idealize.ShloMosaic.Pipeline (Dat)

namespace Cert.Kinetic.Final

open Cert.KernelIdeal Cert.KernelIdeal.Gen Idealize.ShloMosaic.ValueIdx Cert.Kinetic Cert.Kinetic.Entry

variable (m : (ℓ : Loc nD τ sig) → Buf (Elt Ideal) ℓ) (ρ : Dev nD → PrngReg)

/-- The specification of device `c`'s argument arrays, as contents of the result array. -/
abbrev result (c : Dev nD) : Buf (Elt Ideal) ((c : Thread nD τ).loc main_v8) :=
  G (concOf m c) (ordersOf m c) (stoichOf m c) (constsOf m c)

/-- What a flushing point writes back is its block of `G`. -/
theorem flushed_eq (c : Dev nD) (hfin : ∀ i, ∃ x : ℝ, concOf m c i = (x : EReal)) (t : Fin cfg0.N)
    (hf : (cfg0.win 5).flush t = true) :
    (dats m 0 c).flushed 5 t = ((cfg0.win 5).blk t).view.read (Elt Ideal) (result m c) := by
  have h7 : t.val % 8 = 7 := (flush0_5 t).mp hf
  have ht : t.val < 32 := lt_of_lt_of_eq t.isLt (show cfg0.N = 32 from N_0)
  rw [Cert.KernelIdeal.Value.flushed5]
  funext y
  obtain ⟨p, q, rfl⟩ : ∃ (p : Fin 256) (q : Fin 2048), y = ix2 p q := ⟨y 0, y 1, eq_ix2 (n0 := 256) (n1 := 2048) y⟩
  show (outsAt0 m c t.val t.isLt).1 (ix2 p q) = result m c (((cfg0.win 5).blk t).view.emb (ix2 p q))
  rw [Fold.out_eq m c hfin t h7 p q, Fold.shares_eq_G m c (t.val / 8) (by omega) p q]
  refine congrArg (result m c) (funext fun a => Fin.ext ?_)
  obtain ⟨-, -, -, -, -, -, -, -, -, -, e0, e1⟩ := idx_facts t
  match a with
  | ⟨0, _⟩ => show t.val / 8 * 256 + p.val = win0_5.index t (0 : Fin 2) * 256 + 1 * p.val; rw [e0]; omega
  | ⟨1, _⟩ => show q.val = win0_5.index t (1 : Fin 2) * 2048 + 1 * q.val; rw [e1]; omega

/-- An index of the array is in point `t`'s block iff each coordinate is in the block's range on its axis. -/
theorem mem_blk (t : Fin cfg0.N) (i : S1024x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v8).slice (win0_5.rect t)).set ↔ _
  rw [View.set_slice_whole, Rect.mem_set_unit]
  exact Iff.rfl

/-- Every index of the result array is in the block some sweep writes back. -/
theorem cover (i : S1024x2048.Idx) :
    ∃ t : Fin cfg0.N, (cfg0.win 5).flush t = true ∧ i ∈ ((cfg0.win 5).blk t).view.set := by
  have hi0 : (i 0).val < 1024 := (i 0).isLt
  have hi1 : (i 1).val < 2048 := (i 1).isLt
  let t : Fin cfg0.N := ⟨(i 0).val / 256 * 8 + 7, by rw [show cfg0.N = 32 from N_0]; omega⟩
  have htv : t.val = (i 0).val / 256 * 8 + 7 := rfl
  refine ⟨t, (flush0_5 t).mpr (by rw [htv]; omega), ?_⟩
  rw [mem_blk]
  obtain ⟨-, -, -, -, -, -, -, -, -, -, e0, e1⟩ := idx_facts t
  intro a
  match a with
  | ⟨0, _⟩ =>
    show win0_5.index t (0 : Fin 2) * 256 ≤ (i 0).val ∧ (i 0).val < win0_5.index t (0 : Fin 2) * 256 + 256
    rw [e0, htv]; omega
  | ⟨1, _⟩ =>
    show win0_5.index t (1 : Fin 2) * 2048 ≤ (i 1).val ∧ (i 1).val < win0_5.index t (1 : Fin 2) * 2048 + 2048
    rw [e1]; omega

/-- The result array after the run. -/
theorem final (c : Dev nD) (hfin : ∀ i, ∃ x : ℝ, concOf m c i = (x : EReal)) :
    (dats m 0 c).arrAt 5 cfg0.N = result m c :=
  (dats m 0 c).arrAt_eq_of_cover 5 (result m c) (flushed_eq m c hfin) cover

/-- The kernel's run, read: the result array at `G` of the arguments, the arguments unchanged. -/
theorem run (hfin : ∀ c i, ∃ x : ℝ, concOf m c i = (x : EReal)) :
    θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hfin c)), (h c).2⟩)
    (Cert.KernelIdeal.Value.run_blocks m ρ)

end Cert.Kinetic.Final

end
-- ==== Proof.RefSpec.lean ====
/-
  The reference is the specification.

  Read one operation at a time, the reference's result at `(b, m)` is the sum over the 8192 reactions `r` of
  `(k[r] · exp (∑ₘ' log conc[b, m'] · E[m', r])) · S[m, r]`: two contractions as plain sums over the contracted
  coordinate, the two broadcasts of `k` read through to `k[r]`, the integer arrays entering as the reals they denote.
  That is `Cert.Kinetic.G` term for term; only the spelling of the operand indices differs.
-/
import proofs.«151037_j31602369364718_2_alg».proof.Proof.Gen.ReferenceIdeal.Read
import proofs.«151037_j31602369364718_2_alg».proof.Proof.Spec

noncomputable section

open scoped BigOperators

namespace Cert.Kinetic.Ref

open Cert.ReferenceIdeal Cert.ReferenceIdeal.Read Idealize.ShloMosaic Idealize.ShloMosaic.ValueIdx

/-- The reference's last stage, as a function of the four argument arrays, is `G` of them. -/
theorem val_eq_G (conc : S1024x2048.Idx → EReal) (E S : S2048x8192.Idx → BitVec 32) (k : S8192.Idx → EReal) :
    val_main_v8 (F := Ideal) conc E S k = Cert.Kinetic.G conc E S k := by
  funext i
  obtain ⟨b, q, rfl⟩ : ∃ (b : Fin 1024) (q : Fin 2048), i = ix2 b q := ⟨i 0, i 1, eq_ix2 i⟩
  rw [val_main_v8_apply]
  show _ = ∑ r : Fin 8192, Cert.Kinetic.rate conc E k b r * Cert.Kinetic.intVal (S (ix2 q r))
  refine Finset.sum_congr rfl fun r _ => ?_
  have e1 : lidx_main_v8 (ix2 b q) r = ix2 b r := funext fun a => by
    match a with
    | ⟨0, _⟩ => rfl
    | ⟨1, _⟩ => rfl
  have e2 : ridx_main_v8 (ix2 b q) r = ix2 q r := funext fun a => by
    match a with
    | ⟨0, _⟩ => rfl
    | ⟨1, _⟩ => rfl
  have e3 : idx_main_v4 (idx_main_v5 (ix2 b r)) = ix1 r := funext fun a => by
    match a with
    | ⟨0, _⟩ => rfl
  have e4 : ∀ mm : Fin 2048, lidx_main_v2 (ix2 b r) mm = ix2 b mm := fun mm => funext fun a => by
    match a with
    | ⟨0, _⟩ => rfl
    | ⟨1, _⟩ => rfl
  have e5 : ∀ mm : Fin 2048, ridx_main_v2 (ix2 b r) mm = ix2 mm r := fun mm => funext fun a => by
    match a with
    | ⟨0, _⟩ => rfl
    | ⟨1, _⟩ => rfl
  rw [e1, e2, val_main_v6_apply, val_main_v5_apply, val_main_v4_apply, val_main_v3_apply, val_main_v2_apply,
    val_main_v7_apply, e3]
  simp only [val_main_v0_apply, val_main_v1_apply, e4, e5]
  rfl

end Cert.Kinetic.Ref

end
-- ==== Proof.Finite.lean ====
/-
  Under the precondition every concentration is a real number.

  The precondition says `|conc[i]| < +∞` for every entry (and the same of the rate constants): the conjunction of two
  reductions by `and` over comparisons against the pattern of `+∞`.  An extended real whose absolute value `max x (-x)`
  is below `+∞` is neither infinity.
-/
import proofs.«151037_j31602369364718_2_alg».proof.Defs
import proofs.«151037_j31602369364718_2_alg».proof.Proof.Gen.Pre_finite_inputs
import Idealize.ShloMosaic.Lib.ReduceAll
import Idealize.ShloMosaic.Lib.ValueIdx

noncomputable section

namespace Cert.Kinetic.Finite

open Idealize.ShloMosaic Cert.Pre_finite_inputs

instance : Subsingleton S_.Idx := ⟨fun a b => funext fun d => d.elim0⟩

/-- The pattern the precondition compares against denotes `+∞`. -/
theorem top_bits : Ideal.ofBits .f32 0x7F800000#32 = ⊤ := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- If the precondition's predicate is all ones, every concentration is a real number. -/
theorem conc_real (a0 : FVec Ideal S1024x2048 .f32) (a1 a2 : IVec S2048x8192 32) (a3 : FVec Ideal S8192 .f32)
    (h : fn (F := Ideal) a0 a1 a2 a3 = fun _ => 1#1) (i : S1024x2048.Idx) : ∃ r : ℝ, a0 i = (r : EReal) := by
  have h0 := congrFun h ValueIdx.ix0
  dsimp only [fn] at h0
  obtain ⟨h1, -⟩ := IntOp.andi_eq_one.1 h0
  have h2 := Host.reduce_andi_all _ _ _ _ _ h1 i
  have h4 : Ideal.cmp .olt (max (a0 i) (-(a0 i))) ⊤ = 1#1 := by rw [← top_bits]; exact h2
  refine real_of_abs_lt_top (a0 i) ?_
  by_contra hlt
  simp only [Ideal.cmp] at h4
  rw [decide_eq_false hlt] at h4
  exact absurd h4 (by decide)

end Cert.Kinetic.Finite

end
-- ==== Proof.lean ====
/-
  The rate-law kernel against its reference, over the extended reals.

  Both programs compute, for concentrations `conc`, integer orders `E`, integer stoichiometry `S` and rate constants
  `k`, the array `G[b, m] = ∑ᵣ (k[r] · exp (∑ₘ' log conc[b, m'] · E[m', r])) · S[m, r]` (`Cert.Kinetic.G`).

  The reference does so in one pass (`Ref.val_eq_G`).  The kernel splits the logarithm into a leading part and a
  remainder `log c - log c`, contracts both with `E` and adds the results, and sums the second contraction tile by
  tile into a scratch carried over 8 grid points.  The remainder is `0` for a positive concentration and `-∞` again
  for `log 0 = -∞` (or for the junk value of the logarithm of a negative number); in either case the two contractions
  add up to the single one, because a finite concentration's logarithm is never `+∞` — this is where the precondition
  is used (`Finite.conc_real`, `sum_mul_add_sum_remainder_mul`).  Sums of extended reals regroup freely, so the 8 tiles'
  partial sums are the whole sum (`Fold.shares_eq_G`), and the blocks written back at the end of each sweep cover the
  result array (`Final.final`).

  The three frames are the generated frame runs (the reference's with its result dropped); the idealization rewrote
  nothing, so `preserves` is `True`.
-/
import proofs.«151037_j31602369364718_2_alg».proof.Defs
import proofs.«151037_j31602369364718_2_alg».proof.Proof.Gen.Kernel
import proofs.«151037_j31602369364718_2_alg».proof.Proof.Gen.Kernel.Frame
import proofs.«151037_j31602369364718_2_alg».proof.Proof.Gen.KernelIdeal
import proofs.«151037_j31602369364718_2_alg».proof.Proof.Gen.KernelIdeal.Frame
import proofs.«151037_j31602369364718_2_alg».proof.Proof.Gen.ReferenceIdeal
import proofs.«151037_j31602369364718_2_alg».proof.Proof.Gen.ReferenceIdeal.Run
import proofs.«151037_j31602369364718_2_alg».proof.Proof.Gen.ReferenceIdeal.Read
import proofs.«151037_j31602369364718_2_alg».proof.Proof.Gen.Pre_finite_inputs
import proofs.«151037_j31602369364718_2_alg».proof.Proof.Final
import proofs.«151037_j31602369364718_2_alg».proof.Proof.RefSpec
import proofs.«151037_j31602369364718_2_alg».proof.Proof.Finite

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments, with every concentration finite, the kernel's result array and the
    reference's both end at `G` of the arguments. -/
theorem algebraic : Cert.algebraic_KernelIdeal_ReferenceIdeal := by
  intro m ρ m' ρ' hpre hagree
  have hfin : ∀ c i, ∃ x : ℝ, Cert.Kinetic.Entry.concOf m c i = (x : EReal) := fun c i =>
    Cert.Kinetic.Finite.conc_real _ _ _ _ (hpre c) i
  refine ⟨fun c => Cert.Kinetic.Final.result m c, Cert.Kinetic.Final.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Kinetic.Ref.val_eq_G, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
